-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x128 : Shape := ⟨3, ![32, 8192, 128]⟩
abbrev S128x128 : Shape := ⟨2, ![128, 128]⟩
abbrev S128 : Shape := ⟨1, ![128]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S32x8192x128 .f32) (main_arg1 : FVec F S128x128 .f32) (main_arg2 : FVec F S128x128 .f32) (main_arg3 : FVec F S128 .f32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S32x8192x128 : Shape := ⟨3, ![32, 8192, 128]⟩
abbrev S128x128 : Shape := ⟨2, ![128, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S262144x128 : Shape := ⟨2, ![262144, 128]⟩
abbrev S8192x128 : Shape := ⟨2, ![8192, 128]⟩

abbrev nBuf : Space → Nat
  | .hbm => 28
  | .vmem => 6
  | .smem => 0
  | _ => 0

abbrev bufTy : (tb : Table) → Fin (tcTables nBuf tb) → BufTy
  | .hbm, ⟨0, _⟩ => ⟨S32x8192x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .i1⟩
  | .hbm, ⟨14, _⟩ => ⟨S128x128, .f32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .i1⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S1x128, .f32⟩
  | .hbm, ⟨23, _⟩ => ⟨S1x128, .f32⟩
  | .hbm, ⟨24, _⟩ => ⟨S128x128, .bf16⟩
  | .hbm, ⟨25, _⟩ => ⟨S262144x128, .f32⟩
  | .hbm, ⟨26, _⟩ => ⟨S262144x128, .f32⟩
  | .hbm, ⟨27, _⟩ => ⟨S32x8192x128, .f32⟩
  | .local _ .vmem, ⟨0, _⟩ => ⟨S8192x128, .f32⟩
  | .local _ .vmem, ⟨1, _⟩ => ⟨S8192x128, .f32⟩
  | .local _ .vmem, ⟨2, _⟩ => ⟨S128x128, .bf16⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S_S128x128 : S_.BroadcastsInDim S128x128 (![] : Fin 0 → Fin S128x128.rank)
  transposes_S128x128_S128x128_1_0 : S128x128.Transposes [1, 0] S128x128
  shapeCasts_S128_S1x128 : S128.ShapeCasts S1x128
  bitsLt_bf16_f32 : FTy.bits .bf16 < FTy.bits .f32
  shapeCasts_S32x8192x128_S262144x128 : S32x8192x128.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  shapeCasts_S262144x128_S32x8192x128 : S262144x128.ShapeCasts S32x8192x128
  dot_S128x128_S128x128_S128x128_1_0_0_1_n_n_wf : DotDims.WF S128x128 S128x128 S128x128 [1] [0] [0] [1] [] []
  dot_S1x128_S128x128_S1x128_1_0_0_1_n_n_wf : DotDims.WF S1x128 S128x128 S1x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S262144x128.size a
  hwx0_3 : ∀ i : grid0.Coords, EltTy.bits .f32 = 32 ∨ (Rect.block (s := S262144x128) S8192x128.size (cc0_transform_3 i) (hinb0_3 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v14) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192x128 : Shape := ⟨3, ![32, 8192, 128]⟩
abbrev S128x128 : Shape := ⟨2, ![128, 128]⟩
abbrev S128 : Shape := ⟨1, ![128]⟩
abbrev S1x1x128 : Shape := ⟨3, ![1, 1, 128]⟩
abbrev S_ : Shape := ⟨0, ![]⟩
abbrev S128x1 : Shape := ⟨2, ![128, 1]⟩

abbrev nBuf : Space → Nat
  | .hbm => 25
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S32x8192x128, .f32⟩
  | .hbm, ⟨5, _⟩ => ⟨S1x1x128, .f32⟩
  | .hbm, ⟨6, _⟩ => ⟨S32x8192x128, .f32⟩
  | .hbm, ⟨7, _⟩ => ⟨S32x8192x128, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .i1⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .i1⟩
  | .hbm, ⟨23, _⟩ => ⟨S128x128, .f32⟩
  | .hbm, ⟨24, _⟩ => ⟨S32x8192x128, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x8192x128_0_1_2 : S1x1x128.BroadcastsInDim S32x8192x128 (![0, 1, 2] : Fin 3 → Fin S32x8192x128.rank)
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S_S128x128 : S_.BroadcastsInDim S128x128 (![] : Fin 0 → Fin S128x128.rank)
  dot_S32x8192x128_S128x128_S32x8192x128_2_1_01_0_n_n_wf : DotDims.WF S32x8192x128 S128x128 S32x8192x128 [2] [1] [0, 1] [0] [] []
  dot_S32x8192x128_S128x128_S32x8192x128_2_0_01_1_n_n_wf : DotDims.WF S32x8192x128 S128x128 S32x8192x128 [2] [0] [0, 1] [1] [] []

variable [Facts₀]

def dot_S32x8192x128_S128x128_S32x8192x128_2_1_01_0_n_n : DotDims S32x8192x128 S128x128 S32x8192x128 where
  lhsContracting := [2]
  rhsContracting := [1]
  lhsNonContracting := [0, 1]
  rhsNonContracting := [0]
  lhsBatch := []
  rhsBatch := []
  wf := dot_S32x8192x128_S128x128_S32x8192x128_2_1_01_0_n_n_wf
def dot_S32x8192x128_S128x128_S32x8192x128_2_0_01_1_n_n : DotDims S32x8192x128 S128x128 S32x8192x128 where
  lhsContracting := [2]
  rhsContracting := [0]
  lhsNonContracting := [0, 1]
  rhsNonContracting := [1]
  lhsBatch := []
  rhsBatch := []
  wf := dot_S32x8192x128_S128x128_S32x8192x128_2_0_01_1_n_n_wf

class Facts : Prop extends Facts₀ where

variable [Facts]
-- ==== Proof.LibPlainDot.lean ====
/-
  A plain matrix product read at an index.

  The dimension numbers of `[a, K] × [K, b] → [a, b]` — contract the left operand's axis 1 with the right operand's axis 0,
  no batch axis — are those of a kernel's `tpu.matmul` of two matrices and of the host's `dot_general` of two matrices
  alike. On the extended reals either product, read at `(p, q)`, is the sum over `k` of `l (p, k) · r (k, q)` (plus the
  accumulator's entry for the kernel's form); the two lemmas on the operand indices say which entries a contraction
  position reads.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the plain product `[a, K] × [K, b] → [a, b]`, over any witness of their well-formedness. -/
abbrev plainDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem plainDot_lhs_row (i : (⟨2, ![a, b]⟩ : Shape).Idx) (κ : (plainDot wf).contr.Idx) :
    ((plainDot wf).lhsIdx i κ 0).val = (i 0).val := by
  unfold DotDims.lhsIdx
  rw [dif_neg (show ¬(0 : Fin (Shape.rank ⟨2, ![a, K]⟩)) ∈ (plainDot wf).lhsBatch from List.not_mem_nil),
    dif_pos (show (0 : Fin (Shape.rank ⟨2, ![a, K]⟩)) ∈ (plainDot wf).lhsNonContracting from List.mem_singleton.mpr rfl)]
  rfl

/-- and the right operand at the result's column. -/
theorem plainDot_rhs_col (i : (⟨2, ![a, b]⟩ : Shape).Idx) (κ : (plainDot wf).contr.Idx) :
    ((plainDot wf).rhsIdx i κ 1).val = (i 1).val := by
  unfold DotDims.rhsIdx
  rw [dif_neg (show ¬(1 : Fin (Shape.rank ⟨2, ![K, b]⟩)) ∈ (plainDot wf).rhsBatch from List.not_mem_nil),
    dif_pos (show (1 : Fin (Shape.rank ⟨2, ![K, b]⟩)) ∈ (plainDot wf).rhsNonContracting from List.mem_singleton.mpr rfl)]
  rfl

/-- At result index `(p, q)` and contraction position `k` the left operand is read at `(p, k)`. -/
theorem plainDot_lhsIdx (p : Fin a) (q : Fin b) (k : Fin K) :
    (plainDot wf).lhsIdx (ix2 p q) ((contrEquiv1 (plainDot wf) K rfl rfl).symm k) = ix2 p k :=
  funext fun ax => Fin.ext (by
    match ax with
    | ⟨0, _⟩ => exact plainDot_lhs_row wf _ _
    | ⟨1, _⟩ =>
      exact ((plainDot wf).lhsIdx_val_of_single rfl _ _).trans (contrEquiv1_symm_val (plainDot wf) K rfl rfl k))

/-- … and the right operand at `(k, q)`. -/
theorem plainDot_rhsIdx (p : Fin a) (q : Fin b) (k : Fin K) :
    (plainDot wf).rhsIdx (ix2 p q) ((contrEquiv1 (plainDot wf) K rfl rfl).symm k) = ix2 k q :=
  funext fun ax => Fin.ext (by
    match ax with
    | ⟨0, _⟩ =>
      exact ((plainDot wf).rhsIdx_val_of_single rfl _ _).trans (contrEquiv1_symm_val (plainDot wf) K rfl rfl k)
    | ⟨1, _⟩ => exact plainDot_rhs_col wf _ _)

/-- The contraction of a plain product at `(p, q)`, re-indexed by the contracted coordinate. -/
theorem plainDot_sum {φ₁ φ₂ : FTy} (l : FVec Ideal ⟨2, ![a, K]⟩ φ₁) (r : FVec Ideal ⟨2, ![K, b]⟩ φ₂) (p : Fin a) (q : Fin b) :
    (∑ k : (plainDot wf).contr.Idx, l ((plainDot wf).lhsIdx (ix2 p q) k) * r ((plainDot wf).rhsIdx (ix2 p q) k))
      = ∑ k : Fin K, l (ix2 p k) * r (ix2 k q) := by
  rw [← Equiv.sum_comp (contrEquiv1 (plainDot wf) K rfl rfl).symm]
  refine Finset.sum_congr rfl fun k _ => ?_
  rw [plainDot_lhsIdx, plainDot_rhsIdx]

/-- A `tpu.matmul` of two matrices at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (plainDot wf) prec l r acc (ix2 p q) = acc (ix2 p q) + ∑ k : Fin K, l (ix2 p k) * r (ix2 k q) := by
  rw [Ideal.matmul_apply, plainDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (plainDot wf) prec l r (constant ⟨2, ![a, b]⟩ .f32 0x00000000#32) (ix2 p q)
      = ∑ k : Fin K, l (ix2 p k) * r (ix2 k q) := by
  rw [Ideal.matmul_constant_zero_apply, plainDot_sum]

/-- The host's `dot_general` of two matrices at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (plainDot wf) prec sched l r (ix2 p q) = ∑ k : Fin K, l (ix2 p k) * r (ix2 k q) := by
  rw [Ideal.dotGeneral_apply, plainDot_sum]

end Cert.Lib

end
-- ==== Proof.KernelHost.lean ====
/-
  What the kernel's program holds when its region is entered.

  Before the pallas_call the program prepares three arrays from its arguments: the tokens `h` laid out as a matrix of
  262144 rows; the folded matrix `Wᵀ · N`, rounded to bf16 (at the ideal values a change of format is the identity);
  and the folded bias row `b · N`. Here `N` is the normalised graph, computed from the graph argument by the very
  operations the reference applies to it, so it is carried as the reference's stage and never opened.
  Read at an index:
    tokens   X (s · 8192 + t, f) = h (s, t, f)
    matrix   M (f, g) = ∑ k, W (k, f) · N (k, g)
    row      B (0, g) = ∑ k, b k · N (k, g)
-/
import proofs.«159670_j42588895707817_2_alg».proof.Proof.Gen.KernelIdeal.Frame
import proofs.«159670_j42588895707817_2_alg».proof.Proof.Gen.ReferenceIdeal.Read
import proofs.«159670_j42588895707817_2_alg».proof.Proof.LibPlainDot
import Idealize.ShloMosaic.Lib.Pipeline.Value
import Idealize.ShloMosaic.Lib.ValueLayout
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx
open scoped BigOperators

variable (m : (ℓ : Loc nD τ sig) → Buf (Elt Ideal) ℓ)

/-- The four argument arrays as launched, at their literal types. -/
abbrev argH (c : Dev nD) : FVec Ideal S32x8192x128 .f32 := m ((c : Thread nD τ).loc main_arg0)
abbrev argG (c : Dev nD) : FVec Ideal S128x128 .f32 := m ((c : Thread nD τ).loc main_arg1)
abbrev argW (c : Dev nD) : FVec Ideal S128x128 .f32 := m ((c : Thread nD τ).loc main_arg2)
abbrev argB (c : Dev nD) : FVec Ideal S128 .f32 := m ((c : Thread nD τ).loc main_arg3)

/-- The normalised graph of the graph argument, as the stage of the reference that computes it. -/
abbrev NG (c : Dev nD) : FVec Ideal S128x128 .f32 :=
  Cert.ReferenceIdeal.Read.val_main_v12 (F := Ideal) (argG m c)

/-! ## The three arrays as terms of the arguments -/

set_option maxHeartbeats 2000000 in
/-- The token matrix is the token array re-laid. -/
theorem V_tokens (c : Dev nD) :
    (V m c main_v14 : FVec Ideal S262144x128 .f32)
      = shapeCast S262144x128 (argH m c) shapeCasts_S32x8192x128_S262144x128 := by
  dsimp only [V, V0]
  simp only [hostOps0, hostOps0_1, hostOps0_2, hostOps0_3, hostOps0_4, List.flatten_cons, List.flatten_nil, List.append_nil,
    List.cons_append, List.nil_append]
  after_results
  rfl

set_option maxHeartbeats 2000000 in
/-- The folded matrix: the transposed weight times the normalised graph (then a change of format). -/
theorem V_matrix (c : Dev nD) :
    (V m c main_v13 : FVec Ideal S128x128 .bf16)
      = truncf .bf16 (Host.dotGeneral (F := Ideal) dot_S128x128_S128x128_S128x128_1_0_0_1_n_n none
          (transpose S128x128 [1, 0] (argW m c) transposes_S128x128_S128x128_1_0) (NG m c))
          bitsLt_bf16_f32 := by
  dsimp only [V, V0]
  simp only [hostOps0, hostOps0_1, hostOps0_2, hostOps0_3, hostOps0_4, List.flatten_cons, List.flatten_nil, List.append_nil,
    List.cons_append, List.nil_append]
  after_results
  rfl

set_option maxHeartbeats 2000000 in
/-- The folded bias row: the bias as a one-row matrix times the normalised graph. -/
theorem V_row (c : Dev nD) :
    (V m c main_v12 : FVec Ideal S1x128 .f32)
      = Host.dotGeneral (F := Ideal) dot_S1x128_S128x128_S1x128_1_0_0_1_n_n none
          (shapeCast S1x128 (argB m c) shapeCasts_S128_S1x128) (NG m c) := by
  dsimp only [V, V0]
  simp only [hostOps0, hostOps0_1, hostOps0_2, hostOps0_3, hostOps0_4, List.flatten_cons, List.flatten_nil, List.append_nil,
    List.cons_append, List.nil_append]
  after_results
  rfl

/-! ## The three arrays at an index -/

/-- Row `s · 8192 + t` of the token matrix is token `(s, t)`. -/
theorem tokens_apply (c : Dev nD) (s : Fin 32) (t : Fin 8192) (f : Fin 128) (hr : s.val * 8192 + t.val < 262144) :
    (V m c main_v14 : FVec Ideal S262144x128 .f32) (ix2 (⟨s.val * 8192 + t.val, hr⟩ : Fin 262144) f) = argH m c (ix3 s t f) := by
  rw [V_tokens]
  refine shapeCast_apply _ _ _ _ ?_
  rw [Shape.rowMajor_val_three, Shape.rowMajor_val_two]
  show (s.val * 8192 + t.val) * 128 + f.val = (s.val * 8192 + t.val) * 128 + f.val
  rfl

/-- The folded matrix at `(f, g)`. -/
theorem matrix_apply (c : Dev nD) (f g : Fin 128) :
    (V m c main_v13 : FVec Ideal S128x128 .bf16) (ix2 f g) = ∑ k : Fin 128, argW m c (ix2 k f) * NG m c (ix2 k g) := by
  rw [V_matrix]
  show Host.dotGeneral (F := Ideal) dot_S128x128_S128x128_S128x128_1_0_0_1_n_n none _ _ (ix2 f g) = _
  simp only [Host.dotGeneral]
  refine (Cert.Lib.dotGeneral_plain_apply Facts₀.dot_S128x128_S128x128_S128x128_1_0_0_1_n_n_wf none _ _ _ f g).trans ?_
  refine Finset.sum_congr rfl fun k _ => ?_
  rw [transpose_ix2_apply]

/-- The folded bias row at `(0, g)`. -/
theorem row_apply (c : Dev nD) (g : Fin 128) :
    (V m c main_v12 : FVec Ideal S1x128 .f32) (ix2 (0 : Fin 1) g) = ∑ k : Fin 128, argB m c (ix1 k) * NG m c (ix2 k g) := by
  rw [V_row]
  simp only [Host.dotGeneral]
  refine (Cert.Lib.dotGeneral_plain_apply Facts₀.dot_S1x128_S128x128_S1x128_1_0_0_1_n_n_wf none _ _ _ (0 : Fin 1) g).trans ?_
  refine Finset.sum_congr rfl fun k _ => ?_
  rw [shapeCast_a_1a_apply]

end Cert.KernelIdeal.HostValue

end
-- ==== Proof.KernelBlocks.lean ====
/-
  What the pallas_call leaves in its output array.

  The grid has 32 points; point `t` multiplies rows `t · 8192 … t · 8192 + 8191` of the token matrix by the whole folded
  matrix, adds the folded bias row to every row, and writes the 8192 × 128 result back as block `t` of the output. The 32
  blocks tile the output's 262144 rows, so after the run the output is ONE function of the three arrays the region finds:
    out (r, g) = (∑ k, X (r, k) · M (k, g)) + B (0, g).
-/
import proofs.«159670_j42588895707817_2_alg».proof.Proof.Gen.KernelIdeal.Frame
import proofs.«159670_j42588895707817_2_alg».proof.Proof.LibPlainDot
import Idealize.ShloMosaic.Lib.Pipeline.Value
import Idealize.ShloMosaic.Lib.ValueLayout

noncomputable section

namespace Cert.KernelIdeal.BlockValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The function -/

/-- Row `r` of `X` times column `g` of `M`, plus the row `B` at `g`. -/
def rowAt (X : S262144x128.Idx → EReal) (M : S128x128.Idx → EReal) (B : S1x128.Idx → EReal) (r : Fin 262144) (g : Fin 128) : EReal :=
  (∑ k : Fin 128, X (ix2 r k) * M (ix2 k g)) + B (ix2 (0 : Fin 1) g)

/-- The whole product-plus-row array. -/
def product (X : S262144x128.Idx → EReal) (M : S128x128.Idx → EReal) (B : S1x128.Idx → EReal) : S262144x128.Idx → EReal :=
  fun j => rowAt X M B (j 0) (j 1)

/-! ## The body's stored value at an index -/

/-- The value the body stores, at `(p, q)` of its block: row `p` of the loaded tokens times column `q` of the loaded
    matrix (the two changes of format are the identity, the accumulator is zero), plus the loaded row at `q`. -/
theorem pay_apply (x0 : Vec Ideal S8192x128 .f32) (x1 : Vec Ideal S128x128 .bf16) (x2 : Vec Ideal S1x128 .f32)
    (p : Fin 8192) (q : Fin 128) :
    k0_pay1 (F := Ideal) x0 x1 x2 (ix2 p q) = (∑ k : Fin 128, x0 (ix2 p k) * x1 (ix2 k q)) + x2 (ix2 (0 : Fin 1) q) := by
  unfold k0_pay1
  refine (addf_apply _ _ _).trans ?_
  refine congrArg₂ (· + ·) ?_ ?_
  · refine (Cert.Lib.matmul_plain_zero_apply Facts₀.dot_S8192x128_S128x128_S8192x128_1_0_0_1_n_n_wf none _ _ p q).trans ?_
    refine Finset.sum_congr rfl fun k _ => ?_
    rw [shapeCast_self, shapeCast_self]
    rfl
  · rw [shapeCast_self]
    exact broadcastTo_1b_ab_apply x2 _ p q

/-! ## The blocks -/

variable (m : (ℓ : Loc nD τ sig) → Buf (Elt Ideal) ℓ)

theorem hz : (![0, 0] : Fin 2 → Nat) = fun _ => 0 := funext fun a => by fin_cases a <;> rfl

/-- The printed index maps, decided over the grid: the tokens' and the output's block index is the point, the matrix and
    the row are one block each. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s token block at `(p, k)` is the token matrix at row `t · 8192 + p`. -/
theorem tokens_blk (c : Dev nD) (t : Fin cfg0.N) (p : Fin 8192) (k : Fin 128) (hr : t.val * 8192 + p.val < 262144) :
    iblk m c 0 t (ix2 p k) = V m c main_v14 (ix2 (⟨t.val * 8192 + p.val, hr⟩ : Fin 262144) k) := by
  show V m c main_v14 (((cfg0.win 0).blk t).view.emb (ix2 p k)) = _
  have h : ((cfg0.win 0).blk t).view.emb (ix2 p k) = ix2 (⟨t.val * 8192 + p.val, hr⟩ : Fin 262144) k := by
    obtain ⟨e0, e1, -⟩ := idx_facts t
    funext a; apply Fin.ext
    match a with
    | ⟨0, _⟩ => show win0_0.index t (0 : Fin 2) * 8192 + 1 * p.val = t.val * 8192 + p.val; omega
    | ⟨1, _⟩ => show win0_0.index t (1 : Fin 2) * 128 + 1 * k.val = k.val; omega
  rw [h]

/-- Every point's matrix block is the whole folded matrix. -/
theorem matrix_blk (c : Dev nD) (t : Fin cfg0.N) (k q : Fin 128) : iblk m c 1 t (ix2 k q) = V m c main_v13 (ix2 k q) := by
  show V m c main_v13 (((cfg0.win 1).blk t).view.emb (ix2 k q)) = _
  have h : ((cfg0.win 1).blk t).view.emb (ix2 k q) = ix2 k q := by
    obtain ⟨-, -, e2, e3, -⟩ := idx_facts t
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [h]

/-- Every point's row block is the whole folded bias row. -/
theorem row_blk (c : Dev nD) (t : Fin cfg0.N) (q : Fin 128) :
    iblk m c 2 t (ix2 (0 : Fin 1) q) = V m c main_v12 (ix2 (0 : Fin 1) q) := by
  show V m c main_v12 (((cfg0.win 2).blk t).view.emb (ix2 (0 : Fin 1) q)) = _
  have h : ((cfg0.win 2).blk t).view.emb (ix2 (0 : Fin 1) q) = ix2 (0 : Fin 1) q := by
    obtain ⟨-, -, -, -, e4, e5, -⟩ := idx_facts t
    funext a; apply Fin.ext
    match a with
    | ⟨0, _⟩ => show win0_2.index t (0 : Fin 2) * 1 + 1 * 0 = 0; omega
    | ⟨1, _⟩ => show win0_2.index t (1 : Fin 2) * 128 + 1 * q.val = q.val; omega
  rw [h]

/-- Point `t`'s output block sits at rows `t · 8192 + p`. -/
theorem out_emb (t : Fin cfg0.N) (p : Fin 8192) (q : Fin 128) (hr : t.val * 8192 + p.val < 262144) :
    ((cfg0.win 3).blk t).view.emb (ix2 p q) = ix2 (⟨t.val * 8192 + p.val, hr⟩ : Fin 262144) q := by
  obtain ⟨-, -, -, -, -, -, e6, e7⟩ := idx_facts t
  funext a; apply Fin.ext
  match a with
  | ⟨0, _⟩ => show win0_3.index t (0 : Fin 2) * 8192 + 1 * p.val = t.val * 8192 + p.val; omega
  | ⟨1, _⟩ => show win0_3.index t (1 : Fin 2) * 128 + 1 * q.val = q.val; omega

/-- WHAT POINT `t` WRITES BACK is block `t` of the product-plus-row array of the three arrays the region finds. -/
theorem flushed_eq (c : Dev nD) (t : Fin cfg0.N) :
    (dats m 0 c).flushed 3 t
      = ((cfg0.win 3).blk t).view.read (Elt Ideal) (product (V m c main_v14) (V m c main_v13) (V m c main_v12)) := by
  show (cfg0.win 3).cut (grid0.coords t) ((dats m 0 c).after 3 t) = _
  rw [after0_3]
  unfold out0_3
  rw [View.canon_unit_zero hz]
  simp only [View.ld_unit_zero (S := S8192x128) hz, View.ld_unit_zero (S := S128x128) hz, View.ld_unit_zero (S := S1x128) hz]
  refine funext fun (j : S8192x128.Idx) => ?_
  obtain ⟨p, q, rfl⟩ : ∃ (p : Fin 8192) (q : Fin 128), j = ix2 p q := ⟨j 0, j 1, eq_ix2 j⟩
  have hN : grid0.N = 32 := N_0
  have ht : t.val < 32 := by have := t.isLt; rw [← hN]; exact this
  have hr : t.val * 8192 + p.val < 262144 := by have := p.isLt; omega
  show k0_pay1 (F := Ideal) (iblk m c 0 t) (iblk m c 1 t) (iblk m c 2 t) (ix2 p q)
    = product (V m c main_v14) (V m c main_v13) (V m c main_v12) (((cfg0.win 3).blk t).view.emb (ix2 p q))
  refine (pay_apply (iblk m c 0 t) (iblk m c 1 t) (iblk m c 2 t) p q).trans ?_
  rw [out_emb t p q hr]
  show _ = rowAt (V m c main_v14) (V m c main_v13) (V m c main_v12) (⟨t.val * 8192 + p.val, hr⟩ : Fin 262144) q
  unfold rowAt
  refine congrArg₂ (· + ·) (Finset.sum_congr rfl fun k _ => ?_) (row_blk m c t q)
  rw [tokens_blk m c t p k hr, matrix_blk m c t k q]

/-- An index of the output is in point `t`'s block iff each coordinate is in the block's range on its axis. -/
theorem mem_blk (t : Fin cfg0.N) (i : S262144x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v15).slice (win0_3.rect t)).set ↔ _
  rw [View.set_slice_whole, Rect.mem_set_unit]
  exact Iff.rfl

/-- Every row of the output is in the block of the point `row / 8192`. -/
theorem cover (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  have hN : grid0.N = 32 := N_0
  have hlt : (i 0).val / 8192 < grid0.N := by rw [hN]; omega
  refine ⟨⟨(i 0).val / 8192, hlt⟩, flush0_3 _, ?_⟩
  rw [mem_blk]
  obtain ⟨-, -, -, -, -, -, e6, e7⟩ := idx_facts ⟨(i 0).val / 8192, hlt⟩
  intro a
  match a with
  | ⟨0, _⟩ =>
    show win0_3.index ⟨(i 0).val / 8192, hlt⟩ (0 : Fin 2) * 8192 ≤ (i 0).val
      ∧ (i 0).val < win0_3.index ⟨(i 0).val / 8192, hlt⟩ (0 : Fin 2) * 8192 + 8192
    rw [e6]
    show (i 0).val / 8192 * 8192 ≤ (i 0).val ∧ (i 0).val < (i 0).val / 8192 * 8192 + 8192
    omega
  | ⟨1, _⟩ =>
    show win0_3.index ⟨(i 0).val / 8192, hlt⟩ (1 : Fin 2) * 128 ≤ (i 1).val
      ∧ (i 1).val < win0_3.index ⟨(i 0).val / 8192, hlt⟩ (1 : Fin 2) * 128 + 128
    rw [e7]
    omega

/-- THE OUTPUT ARRAY after the run. -/
theorem final (c : Dev nD) :
    (dats m 0 c).arrAt 3 cfg0.N = product (V m c main_v14) (V m c main_v13) (V m c main_v12) :=
  (dats m 0 c).arrAt_eq_of_cover 3 _ (fun t _ => flushed_eq m c t) cover

end Cert.KernelIdeal.BlockValue

end
-- ==== Proof.Spec.lean ====
/-
  The mathematics of the certificate, free of any program.

  A graph aggregation of linear messages over arrays `h : [32, 8192, 128]`, a normalised graph `N : [128, 128]`, a weight
  `W : [128, 128]` and a bias `b : [128]`:

    reference form   out (s, t, g) = ∑ k, ((∑ f, h (s, t, f) · W (k, f)) + b k) · N (k, g)
    kernel form      out (s, t, g) = (∑ f, h (s, t, f) · (∑ k, W (k, f) · N (k, g))) + ∑ k, b k · N (k, g)

  The second folds the two linear maps into one matrix `∑ k, W (k, f) · N (k, g)` and one row `∑ k, b k · N (k, g)` first. On
  the extended reals the two agree when every entry is a real number (distributivity and the exchange of two finite sums;
  with an infinite entry of `N` the distributive law fails, so finiteness is used, not decoration).
-/
import Idealize.ShloMosaic.PureOps.Ideal
import Idealize.ShloMosaic.Lib.ValueIdx

noncomputable section

namespace Cert.GraphAgg

open Idealize.ShloMosaic Idealize.ShloMosaic.ValueIdx
open scoped BigOperators

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

/-- Neither infinity: a real number. -/
theorem isReal_of_ne {x : EReal} (h₁ : x ≠ ⊤) (h₂ : x ≠ ⊥) : IsReal x := ⟨x.toReal, (EReal.coe_toReal h₁ h₂).symm⟩

/-- The coercion of the reals into the extended reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem isReal_sum {ι : Type*} (s : Finset ι) (f : ι → EReal) (hf : ∀ i, IsReal (f i)) : IsReal (∑ i ∈ s, f i) := by
  choose f' ef using hf
  exact ⟨∑ i ∈ s, f' i, by rw [coe_sum]; exact Finset.sum_congr rfl fun i _ => ef i⟩

/-- The law over the reals: distribute, exchange the two sums, collect. -/
theorem agg_law_real {K Fi : Type*} [Fintype K] [Fintype Fi] (h : Fi → ℝ) (W : K → Fi → ℝ) (b n : K → ℝ) :
    (∑ f, h f * (∑ k, W k f * n k)) + ∑ k, b k * n k = ∑ k, ((∑ f, h f * W k f) + b k) * n k := by
  simp only [Finset.mul_sum, add_mul, Finset.sum_mul, Finset.sum_add_distrib]
  rw [Finset.sum_comm]
  refine congrArg (· + _) (Finset.sum_congr rfl fun k _ => Finset.sum_congr rfl fun f _ => ?_)
  ring

/-- The same law on the extended reals, for entries that are all real numbers. -/
theorem agg_law {K Fi : Type*} [Fintype K] [Fintype Fi] (h : Fi → EReal) (W : K → Fi → EReal) (b n : K → EReal)
    (hh : ∀ f, IsReal (h f)) (hW : ∀ k f, IsReal (W k f)) (hb : ∀ k, IsReal (b k)) (hn : ∀ k, IsReal (n k)) :
    (∑ f, h f * (∑ k, W k f * n k)) + ∑ k, b k * n k = ∑ k, ((∑ f, h f * W k f) + b k) * n k := by
  choose h' eh using hh
  choose W' eW using hW
  choose b' eb using hb
  choose n' en using hn
  simp only [eh, eW, eb, en, ← EReal.coe_mul, ← coe_sum, ← EReal.coe_add]
  exact congrArg _ (agg_law_real h' W' b' n')

/-! ## The two forms over the literal shapes -/

abbrev SH : Shape := ⟨3, ![32, 8192, 128]⟩
abbrev SM : Shape := ⟨2, ![128, 128]⟩
abbrev SV : Shape := ⟨1, ![128]⟩

/-- The reference's arrangement at `(s, t, g)`: messages first, then the aggregation over the graph's rows. -/
def refAt (h : SH.Idx → EReal) (N W : SM.Idx → EReal) (b : SV.Idx → EReal) (s : Fin 32) (t : Fin 8192) (g : Fin 128) : EReal :=
  ∑ k : Fin 128, ((∑ f : Fin 128, h (ix3 s t f) * W (ix2 k f)) + b (ix1 k)) * N (ix2 k g)

/-- The kernel's arrangement at `(s, t, g)`: the folded matrix and the folded bias row first, then one product per token. -/
def kerAt (h : SH.Idx → EReal) (N W : SM.Idx → EReal) (b : SV.Idx → EReal) (s : Fin 32) (t : Fin 8192) (g : Fin 128) : EReal :=
  (∑ f : Fin 128, h (ix3 s t f) * (∑ k : Fin 128, W (ix2 k f) * N (ix2 k g))) + ∑ k : Fin 128, b (ix1 k) * N (ix2 k g)

/-- The two arrangements as whole arrays. -/
def refForm (h : SH.Idx → EReal) (N W : SM.Idx → EReal) (b : SV.Idx → EReal) : SH.Idx → EReal := fun i =>
  refAt h N W b (i 0) (i 1) (i 2)

def kerForm (h : SH.Idx → EReal) (N W : SM.Idx → EReal) (b : SV.Idx → EReal) : SH.Idx → EReal := fun i =>
  kerAt h N W b (i 0) (i 1) (i 2)

/-- With real entries throughout the two arrangements agree at every index. -/
theorem kerAt_eq_refAt (h : SH.Idx → EReal) (N W : SM.Idx → EReal) (b : SV.Idx → EReal)
    (hh : ∀ i, IsReal (h i)) (hN : ∀ i, IsReal (N i)) (hW : ∀ i, IsReal (W i)) (hb : ∀ i, IsReal (b i))
    (s : Fin 32) (t : Fin 8192) (g : Fin 128) : kerAt h N W b s t g = refAt h N W b s t g :=
  agg_law (fun f : Fin 128 => h (ix3 s t f)) (fun (k f : Fin 128) => W (ix2 k f))
    (fun k : Fin 128 => b (ix1 k)) (fun k : Fin 128 => N (ix2 k g))
    (fun _ => hh _) (fun _ _ => hW _) (fun _ => hb _) (fun _ => hN _)

/-- So they are one array. -/
theorem kerForm_eq_refForm (h : SH.Idx → EReal) (N W : SM.Idx → EReal) (b : SV.Idx → EReal)
    (hh : ∀ i, IsReal (h i)) (hN : ∀ i, IsReal (N i)) (hW : ∀ i, IsReal (W i)) (hb : ∀ i, IsReal (b i)) :
    kerForm h N W b = refForm h N W b :=
  funext fun i => kerAt_eq_refAt h N W b hh hN hW hb (i 0) (i 1) (i 2)

end Cert.GraphAgg

end
-- ==== Proof.KernelRun.lean ====
/-
  The kernel's program, run: its result array is the kernel form of the specification.

  After the region the program re-lays the 262144 × 128 output as `[32, 8192, 128]`: entry `(s, t, g)` is row
  `s · 8192 + t`, column `g`. That row of the output is token `(s, t)` times the folded matrix plus the folded bias row, and
  the folded matrix and row are sums over the normalised graph's rows: the kernel form, entry by entry.
-/
import proofs.«159670_j42588895707817_2_alg».proof.Proof.KernelHost
import proofs.«159670_j42588895707817_2_alg».proof.Proof.KernelBlocks
import proofs.«159670_j42588895707817_2_alg».proof.Proof.Spec

noncomputable section

namespace Cert.KernelIdeal.RunValue

open Cert.KernelIdeal Cert.KernelIdeal.Gen Idealize.ShloMosaic Idealize.ShloMosaic.TcCoe Idealize.SL.Sem
open Idealize.ShloMosaic.StableHlo Idealize.ShloMosaic.ValueIdx
open Cert.KernelIdeal.HostValue Cert.KernelIdeal.BlockValue Cert.GraphAgg
open scoped BigOperators

variable (m : (ℓ : Loc nD τ sig) → Buf (Elt Ideal) ℓ) (ρ : Dev nD → PrngReg)

/-- The result buffer after the line that follows the region: the output array, re-laid. -/
theorem result_eq (c : Dev nD) :
    (Pipeline.afterTail₀ cfgs (dats m) 0 (V0 m) [hostOps1] c main_v16 : S32x8192x128.Idx → EReal)
      = shapeCast S32x8192x128 (product (V m c main_v14) (V m c main_v13) (V m c main_v12))
          shapeCasts_S262144x128_S32x8192x128 := by
  unfold Pipeline.afterTail₀
  show StableHlo.after hostOps1 _ (Proc.devRef .tc main_v16) = _
  after_results
  exact congrArg (fun A : S262144x128.Idx → EReal => shapeCast S32x8192x128 A shapeCasts_S262144x128_S32x8192x128)
    ((Pipeline.withArrays_arr spec0 launch0.win.arr_inj c _ _ 3).trans (final m c))

/-- The result at `(s, t, g)` is the kernel form there. -/
theorem result_apply (c : Dev nD) (s : Fin 32) (t : Fin 8192) (g : Fin 128) :
    (Pipeline.afterTail₀ cfgs (dats m) 0 (V0 m) [hostOps1] c main_v16 : S32x8192x128.Idx → EReal) (ix3 s t g)
      = kerAt (argH m c) (NG m c) (argW m c) (argB m c) s t g := by
  rw [result_eq]
  have hr : s.val * 8192 + t.val < 262144 := by have := s.isLt; have := t.isLt; omega
  refine (shapeCast_apply _ _ (ix3 s t g) (ix2 (⟨s.val * 8192 + t.val, hr⟩ : Fin 262144) g) ?_).trans ?_
  · rw [Shape.rowMajor_val_two, Shape.rowMajor_val_three]
    rfl
  · show rowAt (V m c main_v14) (V m c main_v13) (V m c main_v12) (⟨s.val * 8192 + t.val, hr⟩ : Fin 262144) g = _
    unfold rowAt kerAt
    refine congrArg₂ (· + ·) (Finset.sum_congr rfl fun f _ => ?_) (row_apply m c g)
    rw [tokens_apply m c s t f hr, matrix_apply m c f g]

/-- The result array is the kernel form of the arguments. -/
theorem result_form (c : Dev nD) :
    (Pipeline.afterTail₀ cfgs (dats m) 0 (V0 m) [hostOps1] c main_v16 : S32x8192x128.Idx → EReal)
      = kerForm (argH m c) (NG m c) (argW m c) (argB m c) := by
  funext i
  obtain ⟨s, t, g, rfl⟩ : ∃ (s : Fin 32) (t : Fin 8192) (g : Fin 128), i = ix3 s t g := ⟨i 0, i 1, i 2, eq_ix3 i⟩
  exact result_apply m c s t g

/-- Every weakly fair execution of the kernel's program terminates with the result array at the kernel form of the
    arguments, the arguments unchanged. -/
theorem run : θ_run defs (onTc (τ := τ) (main (F := Ideal))) ⟨m, fun _ => 0, ρ⟩ (fun r => ∀ c : Dev nD,
      r.2.mem ((c.tc : Thread nD τ).loc main_v16) = kerForm (argH m c) (NG m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v16 (Pipeline.mem_restRefs_of main_v16 (by decide) (by decide))).trans (result_form m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.RefSide.lean ====
/-
  The reference's result is the reference form of the specification.

  The reference multiplies `h` by `Wᵀ` along the feature axis, adds the bias along the last axis, and multiplies the sum by
  the normalised graph along that axis again. Read at `(s, t, g)` through its two `dot_general`s this is
  `∑ k, ((∑ f, h (s, t, f) · W (k, f)) + b k) · N (k, g)`, with `N` the stage that holds the normalised graph.
-/
import proofs.«159670_j42588895707817_2_alg».proof.Proof.Gen.ReferenceIdeal.Read
import proofs.«159670_j42588895707817_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.GraphAgg
open scoped BigOperators

/-- The second product's left operand is read at `(s, t, k)`, its right operand at `(k, g)`. -/
theorem lidx13 (s : Fin 32) (t : Fin 8192) (g k : Fin 128) : lidx_main_v13 (ix3 s t g) k = ix3 s t k :=
  funext fun a => Fin.ext (by match a with | ⟨0, _⟩ => rfl | ⟨1, _⟩ => rfl | ⟨2, _⟩ => rfl)

theorem ridx13 (s : Fin 32) (t : Fin 8192) (g k : Fin 128) : ridx_main_v13 (ix3 s t g) k = ix2 k g :=
  funext fun a => Fin.ext (by match a with | ⟨0, _⟩ => rfl | ⟨1, _⟩ => rfl)

/-- The first product at `(s, t, k)` reads `h` at `(s, t, f)` and `W` at `(k, f)`. -/
theorem lidx0 (s : Fin 32) (t : Fin 8192) (k f : Fin 128) : lidx_main_v0 (ix3 s t k) f = ix3 s t f :=
  funext fun a => Fin.ext (by match a with | ⟨0, _⟩ => rfl | ⟨1, _⟩ => rfl | ⟨2, _⟩ => rfl)

theorem ridx0 (s : Fin 32) (t : Fin 8192) (k f : Fin 128) : ridx_main_v0 (ix3 s t k) f = ix2 k f :=
  funext fun a => Fin.ext (by match a with | ⟨0, _⟩ => rfl | ⟨1, _⟩ => rfl)

/-- The bias, broadcast to the message array, is read at the last coordinate. -/
theorem idx_bias (s : Fin 32) (t : Fin 8192) (k : Fin 128) : idx_main_v1 (idx_main_v2 (ix3 s t k)) = ix1 k :=
  funext fun a => Fin.ext (by match a with | ⟨0, _⟩ => rfl)

/-- The messages at `(s, t, k)`: `(∑ f, h (s, t, f) · W (k, f)) + b k`. -/
theorem messages_apply (x0 : (⟨S32x8192x128, .f32⟩ : BufTy).Contents (Elt Ideal)) (x2 : (⟨S128x128, .f32⟩ : BufTy).Contents (Elt Ideal))
    (x3 : (⟨S128, .f32⟩ : BufTy).Contents (Elt Ideal)) (s : Fin 32) (t : Fin 8192) (k : Fin 128) :
    val_main_v3 (F := Ideal) x0 x2 x3 (ix3 s t k) = (∑ f : Fin 128, x0 (ix3 s t f) * x2 (ix2 k f)) + x3 (ix1 k) := by
  rw [val_main_v3_apply, val_main_v0_apply, val_main_v2_apply, val_main_v1_apply, idx_bias]
  simp only [lidx0, ridx0]
  rfl

/-- The reference's result array is the reference form over the normalised-graph stage. -/
theorem result_eq (x0 : (⟨S32x8192x128, .f32⟩ : BufTy).Contents (Elt Ideal)) (x1 x2 : (⟨S128x128, .f32⟩ : BufTy).Contents (Elt Ideal))
    (x3 : (⟨S128, .f32⟩ : BufTy).Contents (Elt Ideal)) :
    val_main_v13 (F := Ideal) x0 x1 x2 x3 = refForm x0 (val_main_v12 (F := Ideal) x1) x2 x3 := by
  funext i
  obtain ⟨s, t, g, rfl⟩ : ∃ (s : Fin 32) (t : Fin 8192) (g : Fin 128), i = ix3 s t g := ⟨i 0, i 1, i 2, eq_ix3 i⟩
  show val_main_v13 (F := Ideal) x0 x1 x2 x3 (ix3 s t g) = refAt x0 (val_main_v12 (F := Ideal) x1) x2 x3 s t g
  rw [val_main_v13_apply]
  unfold refAt
  refine Finset.sum_congr rfl fun k _ => ?_
  rw [lidx13, ridx13, messages_apply]

end Cert.ReferenceIdeal.RefValue

end
-- ==== Proof.NormGraph.lean ====
/-
  The normalised graph of a real graph is real.

  Row `k` of the graph is divided by its degree `max ε (0 + ∑ j, graph (k, j))`, with `ε` the f32 nearest `1e-10`, and
  replaced by zero where the degree does not exceed `ε`. With real graph entries the row sum is real, the degree is a real
  number at least `ε > 0`, so the quotient is a real number; and zero is real. Hence every entry of the normalised graph
  is a real number — what the distributive law of the specification needs.
-/
import proofs.«159670_j42588895707817_2_alg».proof.Proof.Gen.ReferenceIdeal.Read
import proofs.«159670_j42588895707817_2_alg».proof.Proof.Spec

noncomputable section

namespace Cert.ReferenceIdeal.NormGraph

open Cert.ReferenceIdeal Cert.ReferenceIdeal.Gen Cert.ReferenceIdeal.Read
open Idealize.ShloMosaic Idealize.ShloMosaic.ValueIdx Cert.GraphAgg
open scoped BigOperators

/-- The clip's floor, the f32 nearest `1e-10`, is the positive real `14411519 · 2⁻⁵⁷`. -/
theorem eps_pos : ∃ r : ℝ, 0 < r ∧ Ideal.ofBits .f32 0x2EDBE6FF#32 = (r : EReal) := by
  refine ⟨14411519 * (2 : ℝ) ^ (-57 : ℤ), by positivity, ?_⟩
  simp [Ideal.ofBits, Ideal.ieee, -EReal.coe_mul]

/-- A real number divided by a nonzero real number is a real number. -/
theorem isReal_div {x y : EReal} (hx : IsReal x) (hy : IsReal y) (h0 : y ≠ 0) : IsReal (Ideal.div x y) := by
  obtain ⟨a, rfl⟩ := hx
  obtain ⟨b, rfl⟩ := hy
  unfold Ideal.div
  rw [if_neg h0]
  exact ⟨a * b⁻¹, by rw [EReal.coe_mul, EReal.coe_inv]⟩

/-- The degree of a row of a real graph is a positive real number. -/
theorem degree_pos (x1 : FVec Ideal S128x128 .f32) (hx : ∀ i, IsReal (x1 i)) (j : S128x1.Idx) :
    ∃ r : ℝ, 0 < r ∧ val_main_v6 (F := Ideal) x1 j = (r : EReal) := by
  rw [val_main_v6_apply, val_main_call0_v1_apply, val_main_call0_v0_apply, val_main_cst_0_apply, val_main_v5_apply,
    val_main_v4_apply, val_main_cst_apply]
  simp only [Ideal.maximumf_def, Ideal.ofBits_def, Ideal.ofBits_zero_f32, zero_add]
  obtain ⟨e, he, ee⟩ := eps_pos
  obtain ⟨s, es⟩ := isReal_sum Finset.univ (fun k : Fin 128 => x1 (idx_main_v4 (idx_main_v5 j) k)) (fun _ => hx _)
  rw [ee, es, ← EReal.coe_strictMono.monotone.map_max]
  exact ⟨max e s, lt_max_of_lt_left he, rfl⟩

/-- Every entry of the normalised graph of a real graph is a real number. -/
theorem real (x1 : FVec Ideal S128x128 .f32) (hx : ∀ i, IsReal (x1 i)) (i : S128x128.Idx) :
    IsReal (val_main_v12 (F := Ideal) x1 i) := by
  rw [val_main_v12_apply]
  have ha : IsReal (val_main_v10 (F := Ideal) x1 i) := by
    rw [val_main_v10_apply, val_main_v9_apply]
    obtain ⟨d, hd, ed⟩ := degree_pos x1 hx (idx_main_v9 i)
    rw [ed]
    exact isReal_div (hx i) (isReal_coe d) (EReal.coe_ne_zero.mpr hd.ne')
  have hb : IsReal (val_main_v11 (F := Ideal) i) := by
    rw [val_main_v11_apply, val_main_cst_2_apply, Ideal.ofBits_def, Ideal.ofBits_zero_f32]
    exact isReal_zero
  unfold Scalar.select
  split <;> assumption

end Cert.ReferenceIdeal.NormGraph

end
-- ==== Proof.Finite.lean ====
/-
  The precondition gives real entries.

  The precondition says, of each of the four argument arrays, that every entry's absolute value is below the pattern of
  +∞. On the extended reals `max x (-x) < ⊤` excludes both infinities, so every entry is a real number.
-/
import proofs.«159670_j42588895707817_2_alg».proof.Pre_finite_inputs
import proofs.«159670_j42588895707817_2_alg».proof.Proof.Gen.Pre_finite_inputs
import proofs.«159670_j42588895707817_2_alg».proof.Proof.Spec
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic Cert.GraphAgg

instance : Subsingleton S_.Idx := ⟨fun _ _ => funext fun d => d.elim0⟩

/-- The pattern the precondition compares against denotes +∞. -/
theorem ofBits_inf : Ideal.ofBits .f32 0x7F800000#32 = ⊤ := by simp [Ideal.ofBits, Ideal.ieee]

/-- An extended real whose absolute value is below +∞ is a real number. -/
theorem isReal_of_abs_lt (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- Under the precondition every entry of every argument array is a real number. -/
theorem real_of_pre (a0 : FVec Ideal S32x8192x128 .f32) (a1 a2 : FVec Ideal S128x128 .f32) (a3 : FVec Ideal S128 .f32)
    (h : fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  refine ⟨fun i => ?_, fun i => ?_, fun i => ?_, fun i => ?_⟩
  · exact isReal_of_abs_lt (a0 i) (Host.reduce_andi_all _ _ _ _ _ h0' i)
  · exact isReal_of_abs_lt (a1 i) (Host.reduce_andi_all _ _ _ _ _ h1 i)
  · exact isReal_of_abs_lt (a2 i) (Host.reduce_andi_all _ _ _ _ _ h2 i)
  · exact isReal_of_abs_lt (a3 i) (Host.reduce_andi_all _ _ _ _ _ h3 i)

end Cert.Pre_finite_inputs.Finite

end
-- ==== Proof.lean ====
/-
  A graph aggregation of linear messages, computed two ways.

  Arguments: tokens `h : [32, 8192, 128]`, a graph `G : [128, 128]`, a weight `W : [128, 128]`, a bias `b : [128]`. Both
  programs first normalise the graph by rows: `N (k, g) = G (k, g) / deg k` where `deg k = max ε (∑ j, G (k, j))` exceeds
  `ε`, else `0`.

    The reference forms the messages `(∑ f, h (s, t, f) · W (k, f)) + b k` and aggregates them over the graph's rows:
      out (s, t, g) = ∑ k, ((∑ f, h (s, t, f) · W (k, f)) + b k) · N (k, g).
    The kernel's program folds the two linear maps first — the matrix `M (f, g) = ∑ k, W (k, f) · N (k, g)` and the row
    `B g = ∑ k, b k · N (k, g)` — lays the tokens out as 262144 rows, and its pallas_call computes, 8192 rows at a grid
    point, `(∑ f, X (r, f) · M (f, g)) + B g`; the result is laid back as `[32, 8192, 128]`.

  At the ideal values (floats extended reals, a change of format the identity) the two are equal whenever every argument
  entry is a real number: then `N` is real too (its degrees are real and at least `ε > 0`), and distributivity with the
  exchange of the two finite sums turns one arrangement into the other. The precondition supplies exactly that: every
  entry's absolute value is below +∞.

  The three frames are the generated ones (the reference's is its run with the result dropped); the ideal pass rewrote
  nothing, so the idealization claim is trivial.
-/
import proofs.«159670_j42588895707817_2_alg».proof.Defs
import proofs.«159670_j42588895707817_2_alg».proof.Proof.Gen.Kernel
import proofs.«159670_j42588895707817_2_alg».proof.Proof.Gen.Kernel.Skeleton
import proofs.«159670_j42588895707817_2_alg».proof.Proof.Gen.Kernel.Launch
import proofs.«159670_j42588895707817_2_alg».proof.Proof.Gen.Kernel.Points
import proofs.«159670_j42588895707817_2_alg».proof.Proof.Gen.Kernel.Frame
import proofs.«159670_j42588895707817_2_alg».proof.Proof.Gen.KernelIdeal
import proofs.«159670_j42588895707817_2_alg».proof.Proof.Gen.KernelIdeal.Skeleton
import proofs.«159670_j42588895707817_2_alg».proof.Proof.Gen.KernelIdeal.Launch
import proofs.«159670_j42588895707817_2_alg».proof.Proof.Gen.KernelIdeal.Points
import proofs.«159670_j42588895707817_2_alg».proof.Proof.Gen.KernelIdeal.Frame
import proofs.«159670_j42588895707817_2_alg».proof.Proof.Gen.ReferenceIdeal
import proofs.«159670_j42588895707817_2_alg».proof.Proof.Gen.Pre_finite_inputs
import proofs.«159670_j42588895707817_2_alg».proof.Proof.Gen.ReferenceIdeal.Run
import proofs.«159670_j42588895707817_2_alg».proof.Proof.Gen.ReferenceIdeal.Read
import proofs.«159670_j42588895707817_2_alg».proof.Proof.KernelRun
import proofs.«159670_j42588895707817_2_alg».proof.Proof.RefSide
import proofs.«159670_j42588895707817_2_alg».proof.Proof.NormGraph
import proofs.«159670_j42588895707817_2_alg».proof.Proof.Finite
import Idealize.ShloMosaic.Adequacy
import Idealize.ShloMosaic.Init

noncomputable section

namespace Cert.Proof

open Idealize.ShloMosaic Idealize.SL.Sem Cert.GraphAgg

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's program ends at the kernel form of its arguments, the reference at the reference form of its own; the
    arguments agree, and under the precondition every entry is real, so the two forms are one array. -/
theorem algebraic : Cert.algebraic_KernelIdeal_ReferenceIdeal := by
  intro m ρ m' ρ' hpre hagree
  refine ⟨fun c => kerForm (Cert.KernelIdeal.HostValue.argH m c) (Cert.KernelIdeal.HostValue.NG m c)
      (Cert.KernelIdeal.HostValue.argW m c) (Cert.KernelIdeal.HostValue.argB m c),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨hh, hg, hw, hb⟩ := Cert.Pre_finite_inputs.Finite.real_of_pre _ _ _ _ (hpre c)
  rw [Cert.ReferenceIdeal.Read.val_main_v13_eq, Cert.ReferenceIdeal.RefValue.result_eq, (hagree c).1, (hagree c).2.1,
    (hagree c).2.2.1, (hagree c).2.2.2]
  exact (kerForm_eq_refForm _ _ _ _ hh (Cert.ReferenceIdeal.NormGraph.real _ hg) hw hb).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
